-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S64x4096 : Shape := ⟨2, ![64, 4096]⟩
abbrev S64 : Shape := ⟨1, ![64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x4096 .f32) (main_arg1 : FVec F S64x4096 .f32) (main_arg2 : FVec F S64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x4096 : Shape := ⟨2, ![8192, 4096]⟩
abbrev S64x4096 : Shape := ⟨2, ![64, 4096]⟩
abbrev S64 : Shape := ⟨1, ![64]⟩
abbrev S1x64 : Shape := ⟨2, ![1, 64]⟩
abbrev S8192x64 : Shape := ⟨2, ![8192, 64]⟩
abbrev S512x4096 : Shape := ⟨2, ![512, 4096]⟩
abbrev S256x64 : Shape := ⟨2, ![256, 64]⟩
abbrev S256x4096 : Shape := ⟨2, ![256, 4096]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S8192x64, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S1x64, .f32⟩
  | .local _ .vmem, ⟨4, _⟩ => ⟨S256x64, .f32⟩
  | .local _ .vmem, ⟨5, _⟩ => ⟨S256x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c256_i32 : BitVec 32 := 256#32
  let v10 : BitVec 32 := Scalar.muli v9 c256_i32
  let v11 : Index := Scalar.indexCast v10
  let c0 : Index := 0#32
  ![v11.toNat, 0]
def cc0_transform_0 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  h_S256x4096 : 0 < S256x4096.numel
  inb_S64x4096_S64x4096_0_0 : ∀ a, (![0, 0] : Fin 2 → Nat) a + S64x4096.size a ≤ S64x4096.size a
  h_S64x4096 : 0 < S64x4096.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  dot_S256x4096_S64x4096_S256x64_1_1_0_0_n_n_wf : DotDims.WF S256x4096 S64x4096 S256x64 [1] [1] [0] [0] [] []
  hrank0 : 0 < grid0.rank
  k0_off1_inb : ∀ i : grid0.Coords, ∀ a, (k0_off1 i) a + S256x4096.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S8192x64.size a
  hwx0_3 : ∀ i : grid0.Coords, EltTy.bits .f32 = 32 ∨ (Rect.block (s := S8192x64) S256x64.size (cc0_transform_3 i) (hinb0_3 i)).WholeWords (EltTy.packing .f32)

variable [Facts₀]

def dot_S256x4096_S64x4096_S256x64_1_1_0_0_n_n : DotDims S256x4096 S64x4096 S256x64 where
  lhsContracting := [1]
  rhsContracting := [1]
  lhsNonContracting := [0]
  rhsNonContracting := [0]
  lhsBatch := []
  rhsBatch := []
  wf := dot_S256x4096_S64x4096_S256x64_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S64x4096 : Shape := ⟨2, ![64, 4096]⟩
abbrev S64 : Shape := ⟨1, ![64]⟩
abbrev S4096x64 : Shape := ⟨2, ![4096, 64]⟩
abbrev S8192x64 : Shape := ⟨2, ![8192, 64]⟩
abbrev S1x64 : Shape := ⟨2, ![1, 64]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S8192x64, .f32⟩
  | .hbm, ⟨5, _⟩ => ⟨S1x64, .f32⟩
  | .hbm, ⟨6, _⟩ => ⟨S8192x64, .f32⟩
  | .hbm, ⟨7, _⟩ => ⟨S8192x64, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x4096_S4096x64_S8192x64_1_0_0_1_n_n_wf : DotDims.WF S8192x4096 S4096x64 S8192x64 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf

class Facts : Prop extends Facts₀ where

variable [Facts]
-- ==== Proof.Spec.lean ====
/-
  An affine map of rows, as ONE function of the three argument arrays, over the extended reals.

  `x` has 8192 rows of 4096 entries, `W` has 64 rows of 4096 entries, `b` has 64 entries. The result has one entry
  per row `r` of `x` and row `c` of `W`: the inner product of the two rows, plus the `c`-th entry of `b`:

      affine x W b (r, c) = (∑ k, x (r, k) * W (c, k)) + b c,

  that is, `x · Wᵀ + b` with `b` added to every row. Both programs compute this. The kernel walks the rows of `x` 256 at
  a time; the reference transposes `W` first and contracts the second axis of `x` against the first axis of the
  transpose. Neither changes a term of the sum or its order, so no law of the extended reals beyond the definitions
  is needed, and no finiteness of the inputs.
-/
import Idealize.ShloMosaic.PureOps.Ideal
import Idealize.ShloMosaic.Lib.ValueIdx

noncomputable section

open scoped BigOperators

namespace Cert.Affine

open Idealize.ShloMosaic Idealize.ShloMosaic.ValueIdx

/-- The shape of `x`: 8192 rows of 4096 entries. -/
abbrev SX : Shape := ⟨2, ![8192, 4096]⟩
/-- The shape of `W`: 64 rows of 4096 entries. -/
abbrev SW : Shape := ⟨2, ![64, 4096]⟩
/-- The shape of `b`: 64 entries. -/
abbrev SB : Shape := ⟨1, ![64]⟩
/-- The shape of the result: 8192 rows of 64 entries. -/
abbrev SO : Shape := ⟨2, ![8192, 64]⟩

/-- Entry `(i 0, i 1)` of `x · Wᵀ + b`: the inner product of row `i 0` of `x` with row `i 1` of `W` over their 4096
    entries, plus entry `i 1` of `b`. -/
def affine (x : SX.Idx → EReal) (W : SW.Idx → EReal) (b : SB.Idx → EReal) : SO.Idx → EReal :=
  fun i => (∑ k : Fin 4096, x (ix2 (i 0) k) * W (ix2 (i 1) k)) + b (ix1 (i 1))

/-- The same at explicit coordinates. -/
theorem affine_ix2 (x : SX.Idx → EReal) (W : SW.Idx → EReal) (b : SB.Idx → EReal) (r : Fin 8192) (c : Fin 64) :
    affine x W b (ix2 r c) = (∑ k : Fin 4096, x (ix2 r k) * W (ix2 c k)) + b (ix1 c) := rfl

end Cert.Affine

end
-- ==== Proof.RefValue.lean ====
/-
  The reference computes `affine`.

  Its five operations, read at an index `i = (r, c)` of the result: the transpose of `W` reads `W` with its two
  coordinates swapped; the contraction of `x`'s second axis against the transpose's first is the sum over `k` of
  `x (r, k)` times the transpose at `(k, c)`, that is `W (c, k)`; the two broadcasts of `b`, first to one row of 64
  and then to 8192 rows, read `b` at `c`; and the last operation adds the two. Index by index this is
  `(∑ k, x (r, k) * W (c, k)) + b c`.
-/
import proofs.«119545_g20796231647463_cont_8to1_1044_18_alg».proof.Proof.Gen.ReferenceIdeal.Read
import proofs.«119545_g20796231647463_cont_8to1_1044_18_alg».proof.Proof.Spec

noncomputable section

open scoped BigOperators

namespace Cert.Affine.Reference

open Cert.ReferenceIdeal Cert.ReferenceIdeal.Read Idealize.ShloMosaic Idealize.ShloMosaic.ValueIdx

/-- The left factor of the contraction at `(i, k)` is `x` at row `i 0`, entry `k`. -/
theorem left_index (i : S8192x64.Idx) (k : Fin 4096) : lidx_main_v1 i k = ix2 (i 0) k :=
  funext fun a => Fin.ext (by match a with | ⟨0, _⟩ => rfl | ⟨1, _⟩ => rfl)

/-- The right factor is the transpose at `(k, i 1)`, which is `W` at row `i 1`, entry `k`. -/
theorem right_index (i : S8192x64.Idx) (k : Fin 4096) : idx_main_v0 (ridx_main_v1 i k) = ix2 (i 1) k :=
  funext fun a => Fin.ext (by match a with | ⟨0, _⟩ => rfl | ⟨1, _⟩ => rfl)

/-- The twice-broadcast `b` at `i` is `b` at `i 1`. -/
theorem bias_index (i : S8192x64.Idx) : idx_main_v2 (idx_main_v3 i) = ix1 (i 1) :=
  funext fun a => Fin.ext (by match a with | ⟨0, _⟩ => rfl)

/-- The reference's result, as a function of the three arguments, is `affine`. -/
theorem reference_eq (x : SX.Idx → EReal) (W : SW.Idx → EReal) (b : SB.Idx → EReal) :
    val_main_v4 (F := Ideal) x W b = affine x W b := by
  funext i
  rw [val_main_v4_apply, val_main_v1_apply, val_main_v3_apply, val_main_v2_apply]
  simp only [val_main_v0_apply, left_index, right_index, bias_index]
  rfl

end Cert.Affine.Reference

end
-- ==== Proof.Payload.lean ====
/-
  The kernel body's arithmetic, read at an index.

  At one grid point the body holds a window `X` of 256 rows of `x`, all of `W`, and `b` as one row `B` of 64 entries.
  It contracts the second axis of `X` against the second axis of `W` into a zero accumulator, so entry `(p, q)` of the
  product is `∑ k, X (p, k) * W (q, k)`: the two operand indices of the contraction at `((p, q), k)` are `(p, k)` and
  `(q, k)`. Then it adds `B` to every row: entry `(p, q)` of the broadcast is `B (0, q)`. Over the extended reals the
  zero accumulator contributes nothing (`0 + s = s`), so the stored entry is `(∑ k, X (p, k) * W (q, k)) + B (0, q)`.
-/
import proofs.«119545_g20796231647463_cont_8to1_1044_18_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Affine.Body

open Cert.KernelIdeal Cert.KernelIdeal.Gen Idealize.ShloMosaic Idealize.ShloMosaic.ValueIdx

/-- The contraction's dimension numbers: both operands contracted on their second axis, rows by rows. -/
abbrev dims : DotDims S256x4096 S64x4096 S256x64 := dot_S256x4096_S64x4096_S256x64_1_1_0_0_n_n

/-- The left operand's row is the result's row. -/
theorem left_row (j : S256x64.Idx) (k : dims.contr.Idx) : (dims.lhsIdx j k 0).val = (j 0).val := by
  unfold DotDims.lhsIdx
  rw [dif_neg (show ¬(0 : Fin S256x4096.rank) ∈ dims.lhsBatch by decide),
    dif_pos (show (0 : Fin S256x4096.rank) ∈ dims.lhsNonContracting by decide)]
  rfl

/-- The left operand's entry is the contracted coordinate. -/
theorem left_entry (j : S256x64.Idx) (k : dims.contr.Idx) : (dims.lhsIdx j k 1).val = (k ⟨0, by decide⟩).val :=
  dims.lhsIdx_val_of_single rfl j k

/-- The right operand's row is the result's column. -/
theorem right_row (j : S256x64.Idx) (k : dims.contr.Idx) : (dims.rhsIdx j k 0).val = (j 1).val := by
  unfold DotDims.rhsIdx
  rw [dif_neg (show ¬(0 : Fin S64x4096.rank) ∈ dims.rhsBatch by decide),
    dif_pos (show (0 : Fin S64x4096.rank) ∈ dims.rhsNonContracting by decide)]
  rfl

/-- The right operand's entry is the contracted coordinate. -/
theorem right_entry (j : S256x64.Idx) (k : dims.contr.Idx) : (dims.rhsIdx j k 1).val = (k ⟨0, by decide⟩).val :=
  dims.rhsIdx_val_of_single rfl j k

/-- The product into the zero accumulator, at `(p, q)`: the inner product of row `p` of `X` with row `q` of `W`. -/
theorem product_apply (X : Vec Ideal S256x4096 .f32) (W : Vec Ideal S64x4096 .f32) (p : Fin 256) (q : Fin 64) :
    matmul (φ₁ := .f32) (φ₂ := .f32) dims none X W (constant (F := Ideal) S256x64 .f32 0x00000000#32) (ix2 p q)
      = ∑ k : Fin 4096, X (ix2 p k) * W (ix2 q k) := by
  refine (Ideal.matmul_constant_zero_apply dims none X W (ix2 p q)).trans ?_
  rw [← Equiv.sum_comp (contrEquiv1 dims 4096 rfl rfl).symm]
  refine Finset.sum_congr rfl fun k _ => ?_
  have hk := contrEquiv1_symm_val dims 4096 rfl rfl k
  have el : dims.lhsIdx (ix2 p q) ((contrEquiv1 dims 4096 rfl rfl).symm k) = ix2 p k := funext fun a => Fin.ext (by
    match a with
    | ⟨0, _⟩ => exact left_row _ _
    | ⟨1, _⟩ => exact (left_entry _ _).trans hk)
  have er : dims.rhsIdx (ix2 p q) ((contrEquiv1 dims 4096 rfl rfl).symm k) = ix2 q k := funext fun a => Fin.ext (by
    match a with
    | ⟨0, _⟩ => exact right_row _ _
    | ⟨1, _⟩ => exact (right_entry _ _).trans hk)
  rw [el, er]

/-- What the body stores, at `(p, q)`: the inner product of row `p` of the window with row `q` of `W`, plus entry `q` of
    the one row of `b`. -/
theorem stored_apply (X : Vec Ideal S256x4096 .f32) (W : Vec Ideal S64x4096 .f32) (B : Vec Ideal S1x64 .f32)
    (p : Fin 256) (q : Fin 64) :
    k0_pay1 (F := Ideal) X W B (ix2 p q) = (∑ k : Fin 4096, X (ix2 p k) * W (ix2 q k)) + B (ix2 (0 : Fin 1) q) := by
  unfold k0_pay1
  rw [addf_apply, shapeCast_self, broadcastTo_1b_ab_apply]
  exact congrArg (· + B (ix2 (0 : Fin 1) q)) (product_apply X W p q)

end Cert.Affine.Body

end
-- ==== Proof.Piece.lean ====
/-
  What the body leaves in the output's staging buffer at one grid point.

  The body makes one store, through the whole 256 × 64 block, of its arithmetic applied to three loads: 256 consecutive
  rows of the 512-row block of `x` it was handed, starting at the row offset it computes from the grid coordinate; all
  of the block of `W`; and the one row holding `b`. A single store through the whole block leaves exactly its payload,
  and a load through the whole of a buffer reads the buffer's contents; the first load, through a proper window,
  reads the contents at the window's indices.
-/
import proofs.«119545_g20796231647463_cont_8to1_1044_18_alg».proof.Proof.Gen.KernelIdeal.Frame
import Idealize.ShloMosaic.Lib.Pipeline.Value
import Idealize.ShloMosaic.Lib.Tactic

noncomputable section

namespace Cert.Affine.Piece

open Cert.KernelIdeal Cert.KernelIdeal.Gen Idealize.ShloMosaic Idealize.ShloMosaic.TcCoe Idealize.SL.Sem
open Idealize.ShloMosaic.Tactic

variable {F : FTy → Type} [FloatOps F]

/-- The zero offsets of a rank-2 rectangle, as the constant function. -/
theorem hz : (![0, 0] : Fin 2 → Nat) = fun _ => 0 := funext fun a => by fin_cases a <;> rfl

/-- The 256 rows the body loads out of the 512-row block `X` at grid coordinate `i`: rows `o … o + 255`, where `o` is the
    offset the body computes. -/
abbrev rows (i : grid0.Coords) (X : Vec F S512x4096 .f32) : Vec F S256x4096 .f32 :=
  View.ld X (Rect.unit (s := S512x4096) (k0_off1 i) S256x4096.size (k0_off1_inb i))

/-- The output's staging buffer after the body: the arithmetic of the 256 loaded rows, the block of `W` and the row of `b`. -/
theorem stored_eq (c : Dev nD) (i : grid0.Coords) (a1 : Memref sig .tc .vmem S512x4096 .f32) (h1 : a1.IsWhole)
    (a2 : Memref sig .tc .vmem S64x4096 .f32) (h2 : a2.IsWhole) (a3 : Memref sig .tc .vmem S1x64 .f32) (h3 : a3.IsWhole)
    (a4 : Memref sig .tc .vmem S256x64 .f32) (h4 : a4.IsWhole)
    (x0 : Vec F S512x4096 .f32) (x1 : Vec F S64x4096 .f32) (x2 : Vec F S1x64 .f32) :
    out0_A_3 c i a1 h1 a2 h2 a3 h3 a4 h4 x0 x1 x2 = k0_pay1 (rows i x0) x1 x2 := by
  unfold out0_A_3
  rw [View.read_writes_eq_canon _ _ _ (cover0_A_3 c i a1 h1 a2 h2 a3 h3 a4 h4 x0 x1 x2)]
  unfold kernelRun0_A
  dsimp only
  rw [View.canon_unit_zero hz]
  simp only [View.readAt_eq_ld, h1.read_unread, h2.read_unread, h3.read_unread,
    View.ld_unit_zero (S := S64x4096) hz, View.ld_unit_zero (S := S1x64) hz]

end Cert.Affine.Piece

end
-- ==== Proof.Blocks.lean ====
/-
  From blocks to the whole result array.

  The grid has 32 points. At point `t` the kernel is handed block `t / 2` of `x` (512 rows), all of `W`, and `b` as one row,
  and loads rows `(t % 2) * 256 …` of its block: row `p` of the load is row `(t / 2) * 512 + (t % 2) * 256 + p = 256 * t + p` of
  `x`. What it leaves is written back as block `t` of the result, whose row `p` is row `256 * t + p` of the result. So the
  entry written at result index `(256 * t + p, q)` is `(∑ k, x (256 * t + p, k) * W (q, k)) + b q`: block `t` of `affine x W b`.
  Every row `r` of the result lies in the block of point `r / 256`, every point writes back, and two points that write
  the same index would write the same value; so the array ends holding `affine x W b`.
-/
import proofs.«119545_g20796231647463_cont_8to1_1044_18_alg».proof.Proof.Gen.KernelIdeal.Value
import proofs.«119545_g20796231647463_cont_8to1_1044_18_alg».proof.Proof.Spec
import proofs.«119545_g20796231647463_cont_8to1_1044_18_alg».proof.Proof.Payload
import proofs.«119545_g20796231647463_cont_8to1_1044_18_alg».proof.Proof.Piece
import Idealize.ShloMosaic.Lib.Pipeline.Value
import Idealize.ShloMosaic.Lib.StableHlo.Run
import Idealize.ShloMosaic.Lib.ValueIdx
import Idealize.ShloMosaic.Lib.ValueLayout

noncomputable section

open scoped BigOperators

namespace Cert.Affine.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- Where each window's block sits at point `t`, and the row offset the body computes there, decided over the 32 points:
    `x` is handed in blocks of 512 rows, block `t / 2`; `W` and the row of `b` whole; the result in blocks of 256 rows,
    block `t`; and the body's offset into its block of `x` is `(t % 2) * 256`. -/
theorem grid_facts : ∀ t : Fin cfg0.N,
    win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ k0_off1 (grid0.coords t) (0 : Fin 2) = (t.val % 2) * 256 ∧ k0_off1 (grid0.coords t) (1 : Fin 2) = 0 :=
  (by decide +kernel : ∀ t : Fin grid0.N, _)

/-- The one host operation before the kernel lays `b` out as one row of 64. -/
theorem bias_row (c : Dev nD) :
    (V m c main_v0 : S1x64.Idx → EReal) = shapeCast S1x64 (m ((c : Thread nD τ).loc main_arg2)) shapeCasts_S64_S1x64 := by
  dsimp only [Gen.V, Gen.hostOps0]; after_results; rfl

/-- The block of `x` at point `t`, at local index `j`: `x` at row `(t / 2) * 512 + j 0`, entry `j 1`. -/
theorem x_block_apply (c : Dev nD) (t : Fin cfg0.N) (j : S512x4096.Idx) (g : S8192x4096.Idx)
    (h0 : (g 0).val = t.val / 2 * 512 + (j 0).val) (h1 : (g 1).val = (j 1).val) :
    (iblk m c 0 t : Vec Ideal S512x4096 .f32) j = (m ((c : Thread nD τ).loc main_arg0) : S8192x4096.Idx → EReal) g := by
  obtain ⟨e00, e01, -⟩ := grid_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 512 + 1 * (j 0).val = (g 0).val; rw [e00, h0]; omega
  | ⟨1, _⟩ => show win0_0.index t (1 : Fin 2) * 4096 + 1 * (j 1).val = (g 1).val; rw [e01, h1]; omega

/-- The block of `W` at any point is `W`. -/
theorem w_block_apply (c : Dev nD) (t : Fin cfg0.N) (j : S64x4096.Idx) :
    (iblk m c 1 t : Vec Ideal S64x4096 .f32) j = (m ((c : Thread nD τ).loc main_arg1) : S64x4096.Idx → EReal) j := by
  obtain ⟨-, -, e10, e11, -⟩ := grid_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 64 + 1 * (j 0).val = (j 0).val; rw [e10]; omega
  | ⟨1, _⟩ => show win0_1.index t (1 : Fin 2) * 4096 + 1 * (j 1).val = (j 1).val; rw [e11]; omega

/-- The one-row block at any point, at `(0, q)`, is `b` at `q`. -/
theorem b_block_apply (c : Dev nD) (t : Fin cfg0.N) (q : Fin 64) :
    (iblk m c 2 t : Vec Ideal S1x64 .f32) (ix2 (0 : Fin 1) q) = (m ((c : Thread nD τ).loc main_arg2) : S64.Idx → EReal) (ix1 q) := by
  obtain ⟨-, -, -, -, e20, e21, -⟩ := grid_facts t
  unfold iblk
  rw [View.read_apply]
  show (V m c main_v0 : S1x64.Idx → EReal) _ = m (c.tc.loc main_arg2) _
  rw [bias_row]
  have e : ((cfg0.win 2).blk t).view.emb (ix2 (0 : Fin 1) q) = ix2 (0 : Fin 1) q := by
    funext a
    apply Fin.ext
    match a with
    | ⟨0, _⟩ => show win0_2.index t (0 : Fin 2) * 1 + 1 * 0 = 0; rw [e20]
    | ⟨1, _⟩ => show win0_2.index t (1 : Fin 2) * 64 + 1 * q.val = q.val; rw [e21]; omega
  rw [e]
  exact shapeCast_a_1a_apply _ _ _ _

/-- One entry of what a point stores, once its three loads are known to read `x`, `W` and `b` at the right places: the
    entry of `affine x W b` at the result index `g`. -/
theorem entry_eq (x : SX.Idx → EReal) (W : SW.Idx → EReal) (b : SB.Idx → EReal)
    (X : Vec Ideal S256x4096 .f32) (Wb : Vec Ideal S64x4096 .f32) (B : Vec Ideal S1x64 .f32)
    (p : Fin 256) (q : Fin 64) (g : SO.Idx)
    (hX : ∀ k : Fin 4096, X (ix2 p k) = x (ix2 (g 0) k))
    (hW : ∀ k : Fin 4096, Wb (ix2 q k) = W (ix2 (g 1) k))
    (hB : B (ix2 (0 : Fin 1) q) = b (ix1 (g 1))) :
    k0_pay1 (F := Ideal) X Wb B (ix2 p q) = affine x W b g := by
  rw [Body.stored_apply]
  unfold affine
  simp only [hX, hW, hB]

/-- What point `t` writes back is block `t` of `affine x W b`. -/
theorem flushed_eq (c : Dev nD) (t : Fin cfg0.N) :
    (dats m 0 c).flushed 3 t = ((cfg0.win 3).blk t).view.read (Elt Ideal)
      (affine (m ((c : Thread nD τ).loc main_arg0)) (m ((c : Thread nD τ).loc main_arg1)) (m ((c : Thread nD τ).loc main_arg2))) := by
  rw [Cert.KernelIdeal.Value.flushed3_A, Piece.stored_eq]
  obtain ⟨-, -, -, -, -, -, e30, e31, eo0, eo1⟩ := grid_facts t
  funext y
  obtain ⟨p, q, rfl⟩ : ∃ (p : Fin 256) (q : Fin 64), y = ix2 p q := ⟨y 0, y 1, eq_ix2 y⟩
  show k0_pay1 (F := Ideal) (Piece.rows (grid0.coords t) (iblk m c 0 t)) (iblk m c 1 t) (iblk m c 2 t) (ix2 p q)
    = affine _ _ _ (((cfg0.win 3).blk t).view.emb (ix2 p q))
  refine entry_eq _ _ _ _ _ _ p q _ (fun k => ?_) (fun k => ?_) ?_
  · show (iblk m c 0 t : Vec Ideal S512x4096 .f32)
        ((Rect.unit (s := S512x4096) (k0_off1 (grid0.coords t)) S256x4096.size (k0_off1_inb (grid0.coords t))).idx (ix2 p k)) = _
    refine x_block_apply m c t _ _ ?_ ?_
    · show win0_3.index t (0 : Fin 2) * 256 + 1 * p.val = t.val / 2 * 512 + (k0_off1 (grid0.coords t) (0 : Fin 2) + 1 * p.val)
      rw [e30, eo0]; omega
    · show k.val = k0_off1 (grid0.coords t) (1 : Fin 2) + 1 * k.val
      rw [eo1]; omega
  · refine (w_block_apply m c t (ix2 q k)).trans ?_
    congr 1
    funext a
    apply Fin.ext
    match a with
    | ⟨0, _⟩ => show q.val = win0_3.index t (1 : Fin 2) * 64 + 1 * q.val; rw [e31]; omega
    | ⟨1, _⟩ => rfl
  · refine (b_block_apply m c t q).trans ?_
    congr 1
    funext a
    apply Fin.ext
    match a with
    | ⟨0, _⟩ => show q.val = win0_3.index t (1 : Fin 2) * 64 + 1 * q.val; rw [e31]; omega

/-- An index of the result is in point `t`'s block when each coordinate is in the block's range on its axis. -/
theorem mem_block (t : Fin cfg0.N) (i : S8192x64.Idx) :
    i ∈ ((cfg0.win 3).blk t).view.set ↔ ∀ a : Fin 2, win0_3.index t a * S256x64.size a ≤ (i a).val
      ∧ (i a).val < win0_3.index t a * S256x64.size a + S256x64.size a := by
  show i ∈ ((View.whole main_v1).slice (win0_3.rect t)).set ↔ _
  rw [View.set_slice_whole, Rect.mem_set_unit]
  exact Iff.rfl

/-- Every index of the result is in the block of a point that writes back: row `r` in that of point `r / 256`. -/
theorem covered (i : S8192x64.Idx) :
    ∃ t : Fin cfg0.N, (cfg0.win 3).flush t = true ∧ i ∈ ((cfg0.win 3).blk t).view.set := by
  have hN : cfg0.N = 32 := N_0
  have hi0 : (i 0).val < 8192 := (i 0).isLt
  have hi1 : (i 1).val < 64 := (i 1).isLt
  obtain ⟨t, ht⟩ : ∃ t : Fin cfg0.N, t.val = (i 0).val / 256 := ⟨⟨(i 0).val / 256, by rw [hN]; omega⟩, rfl⟩
  obtain ⟨-, -, -, -, -, -, e30, e31, -⟩ := grid_facts t
  refine ⟨t, flush0_3 t, ?_⟩
  rw [mem_block]
  intro a
  match a with
  | ⟨0, _⟩ =>
    show win0_3.index t (0 : Fin 2) * 256 ≤ (i 0).val ∧ (i 0).val < win0_3.index t (0 : Fin 2) * 256 + 256
    rw [e30, ht]; omega
  | ⟨1, _⟩ =>
    show win0_3.index t (1 : Fin 2) * 64 ≤ (i 1).val ∧ (i 1).val < win0_3.index t (1 : Fin 2) * 64 + 64
    rw [e31]; omega

/-- The result array after the run is `affine x W b` of the arguments as launched. -/
theorem final (c : Dev nD) : (dats m 0 c).arrAt 3 cfg0.N
    = affine (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: it terminates with the result array at `affine x W b` and the arguments unchanged. -/
theorem run : θ_run defs (onTc (τ := τ) (main (F := Ideal))) ⟨m, fun _ => 0, ρ⟩ fun r => ∀ c : Dev nD,
      r.2.mem ((c : Thread nD τ).loc main_v1)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Affine.Blocks

end
-- ==== Proof.lean ====
/-
  The kernel and its reference compute the same affine map, `x · Wᵀ + b`, over the extended reals.

  `x` has 8192 rows of 4096 entries, `W` 64 rows of 4096 entries, `b` 64 entries; the result has 8192 rows of 64 entries,
  `(∑ k, x (r, k) * W (c, k)) + b c` at `(r, c)` (Proof/Spec.lean: `affine`).

  * The reference transposes `W`, contracts `x`'s second axis against the transpose's first, and adds `b` broadcast over
    the rows: read at an index, that is `affine` (Proof/RefValue.lean, over the generated reading of its five operations).
  * The kernel walks the rows of `x` 256 at a time over a grid of 32 points. At each point it contracts the second axis
    of its 256 rows against the second axis of `W` into a zero accumulator and adds the row of `b` (Proof/Payload.lean:
    the stored entry at `(p, q)`); what it leaves in the output's buffer is that one store (Proof/Piece.lean); the rows
    it loads at point `t` are rows `256 * t …` of `x`, and its result is written back as rows `256 * t …` of the result,
    so the 32 blocks together are `affine` (Proof/Blocks.lean).
  The two sums have the same terms in the same order, so nothing of the extended reals' arithmetic is used beyond
  `0 + s = s` for the zero accumulator, and the inputs' finiteness is never needed.

  The three frame claims are the generated frames of the two kernel programs and the reference's generated run with
  its result dropped; the idealization rewrote nothing, so it is preserved trivially.
-/
import proofs.«119545_g20796231647463_cont_8to1_1044_18_alg».proof.Defs
import proofs.«119545_g20796231647463_cont_8to1_1044_18_alg».proof.Proof.Gen.Kernel
import proofs.«119545_g20796231647463_cont_8to1_1044_18_alg».proof.Proof.Gen.Kernel.Frame
import proofs.«119545_g20796231647463_cont_8to1_1044_18_alg».proof.Proof.Gen.KernelIdeal
import proofs.«119545_g20796231647463_cont_8to1_1044_18_alg».proof.Proof.Gen.KernelIdeal.Frame
import proofs.«119545_g20796231647463_cont_8to1_1044_18_alg».proof.Proof.Gen.KernelIdeal.Value
import proofs.«119545_g20796231647463_cont_8to1_1044_18_alg».proof.Proof.Gen.ReferenceIdeal
import proofs.«119545_g20796231647463_cont_8to1_1044_18_alg».proof.Proof.Gen.ReferenceIdeal.Run
import proofs.«119545_g20796231647463_cont_8to1_1044_18_alg».proof.Proof.Gen.ReferenceIdeal.Read
import proofs.«119545_g20796231647463_cont_8to1_1044_18_alg».proof.Proof.Gen.Pre_finite_inputs
import proofs.«119545_g20796231647463_cont_8to1_1044_18_alg».proof.Proof.Spec
import proofs.«119545_g20796231647463_cont_8to1_1044_18_alg».proof.Proof.RefValue
import proofs.«119545_g20796231647463_cont_8to1_1044_18_alg».proof.Proof.Payload
import proofs.«119545_g20796231647463_cont_8to1_1044_18_alg».proof.Proof.Piece
import proofs.«119545_g20796231647463_cont_8to1_1044_18_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From memories that agree on `x`, `W` and `b`, both programs end with the result array at `affine x W b`. -/
theorem algebraic : Cert.algebraic_KernelIdeal_ReferenceIdeal := by
  intro m ρ m' ρ' _ hagree
  refine ⟨_, Cert.Affine.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.Affine.Reference.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
